-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_200" .f32 0x3BA3D70A#32 ((1 / 200 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x200x128 : Shape := ⟨3, ![8, 200, 128]⟩
abbrev S8x200x200x16 : Shape := ⟨4, ![8, 200, 200, 16]⟩
abbrev S8x200x200 : Shape := ⟨3, ![8, 200, 200]⟩
abbrev S128x128 : Shape := ⟨2, ![128, 128]⟩
abbrev S128x16 : Shape := ⟨2, ![128, 16]⟩
abbrev S128x1 : Shape := ⟨2, ![128, 1]⟩
abbrev S128 : Shape := ⟨1, ![128]⟩
abbrev S_ : Shape := ⟨0, ![]⟩

class Facts : Prop where
  bcast_S_S8x200x128 : S_.BroadcastsInDim S8x200x128 (![] : Fin 0 → Fin S8x200x128.rank)
  reducesTo_S8x200x128_S_d0_1_2 : S8x200x128.ReducesTo [0, 1, 2] S_
  h_S_ : 0 < S_.numel
  bcast_S_S8x200x200x16 : S_.BroadcastsInDim S8x200x200x16 (![] : Fin 0 → Fin S8x200x200x16.rank)
  reducesTo_S8x200x200x16_S_d0_1_2_3 : S8x200x200x16.ReducesTo [0, 1, 2, 3] S_
  bcast_S_S8x200x200 : S_.BroadcastsInDim S8x200x200 (![] : Fin 0 → Fin S8x200x200.rank)
  reducesTo_S8x200x200_S_d0_1_2 : S8x200x200.ReducesTo [0, 1, 2] S_
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_
  bcast_S_S128x1 : S_.BroadcastsInDim S128x1 (![] : Fin 0 → Fin S128x1.rank)
  reducesTo_S128x1_S_d0_1 : S128x1.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x16 .f32) (main_arg5 : FVec F S128x1 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x16 .f32 := Host.absf main_arg4
  let main_cst_6 : FVec F S_ .f32 := constant S_ .f32 0x7F800000#32
  let main_v20 : FVec F S128x16 .f32 := broadcastInDim S128x16 ![] bcast_S_S128x16 main_cst_6
  let main_v21 : IVec S128x16 1 := cmpf .olt main_v19 main_v20
  let main_c_7 : IVec S_ 1 := constantI S_ 1 1#1
  let main_v22 : IVec S_ 1 := (fun x v => Host.reduce IntOp.andi x v reducesTo_S128x16_S_d0_1 h_S_) main_v21 main_c_7
  let main_v23 : IVec S_ 1 := andi main_v18 main_v22
  let main_v24 : FVec F S128x1 .f32 := Host.absf main_arg5
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S8x200x128 .f32) (main_arg1 : FVec F S8x200x200x16 .f32) (main_arg2 : FVec F S8x200x200 .f32) (main_arg3 : FVec F S128x128 .f32) (main_arg4 : FVec F S128x16 .f32) (main_arg5 : FVec F S128x1 .f32) (main_arg6 : FVec F S128x128 .f32) (main_arg7 : FVec F S128 .f32) : IVec S_ 1 :=
  let main_v0 : FVec F S8x200x128 .f32 := Host.absf main_arg0
  let main_cst : FVec F S_ .f32 := constant S_ .f32 0x7F800000#32
  let main_v1 : FVec F S8x200x128 .f32 := broadcastInDim S8x200x128 ![] bcast_S_S8x200x128 main_cst
  let main_v2 : IVec S8x200x128 1 := cmpf .olt main_v0 main_v1
  let main_c : IVec S_ 1 := constantI S_ 1 1#1
  let main_v3 : IVec S_ 1 := (fun x v => Host.reduce IntOp.andi x v reducesTo_S8x200x128_S_d0_1_2 h_S_) main_v2 main_c
  let main_v4 : FVec F S8x200x200x16 .f32 := Host.absf main_arg1
  let main_cst_0 : FVec F S_ .f32 := constant S_ .f32 0x7F800000#32
  let main_v5 : FVec F S8x200x200x16 .f32 := broadcastInDim S8x200x200x16 ![] bcast_S_S8x200x200x16 main_cst_0
  let main_v6 : IVec S8x200x200x16 1 := cmpf .olt main_v4 main_v5
  let main_c_1 : IVec S_ 1 := constantI S_ 1 1#1
  let main_v7 : IVec S_ 1 := (fun x v => Host.reduce IntOp.andi x v reducesTo_S8x200x200x16_S_d0_1_2_3 h_S_) main_v6 main_c_1
  let main_v8 : IVec S_ 1 := andi main_v3 main_v7
  let main_v9 : FVec F S8x200x200 .f32 := Host.absf main_arg2
  let main_cst_2 : FVec F S_ .f32 := constant S_ .f32 0x7F800000#32
  let main_v10 : FVec F S8x200x200 .f32 := broadcastInDim S8x200x200 ![] bcast_S_S8x200x200 main_cst_2
  let main_v11 : IVec S8x200x200 1 := cmpf .olt main_v9 main_v10
  let main_c_3 : IVec S_ 1 := constantI S_ 1 1#1
  let main_v12 : IVec S_ 1 := (fun x v => Host.reduce IntOp.andi x v reducesTo_S8x200x200_S_d0_1_2 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_v13 main_v16
-- ==== Kernel.lean ====
abbrev S8x200x128 : Shape := ⟨3, ![8, 200, 128]⟩
abbrev S8x200x200x16 : Shape := ⟨4, ![8, 200, 200, 16]⟩
abbrev S8x200x200 : Shape := ⟨3, ![8, 200, 200]⟩
abbrev S128x128 : Shape := ⟨2, ![128, 128]⟩
abbrev S128x16 : Shape := ⟨2, ![128, 16]⟩
abbrev S128x1 : Shape := ⟨2, ![128, 1]⟩
abbrev S128 : Shape := ⟨1, ![128]⟩
abbrev S8x200x200x1 : Shape := ⟨4, ![8, 200, 200, 1]⟩
abbrev S1x128 : Shape := ⟨2, ![1, 128]⟩
abbrev S1x200x128 : Shape := ⟨3, ![1, 200, 128]⟩
abbrev S1x200x200x16 : Shape := ⟨4, ![1, 200, 200, 16]⟩
abbrev S1x200x200x1 : Shape := ⟨4, ![1, 200, 200, 1]⟩
abbrev S200x128 : Shape := ⟨2, ![200, 128]⟩
abbrev S200x200x16 : Shape := ⟨3, ![200, 200, 16]⟩
abbrev S200x200x1 : Shape := ⟨3, ![200, 200, 1]⟩
abbrev S200x40x16 : Shape := ⟨3, ![200, 40, 16]⟩
abbrev S200x40x1 : Shape := ⟨3, ![200, 40, 1]⟩
abbrev S8000x16 : Shape := ⟨2, ![8000, 16]⟩
abbrev S16x128 : Shape := ⟨2, ![16, 128]⟩
abbrev S8000x128 : Shape := ⟨2, ![8000, 128]⟩
abbrev S200x40x128 : Shape := ⟨3, ![200, 40, 128]⟩
abbrev S1x1x128 : Shape := ⟨3, ![1, 1, 128]⟩
abbrev S200x1x128 : Shape := ⟨3, ![200, 1, 128]⟩

abbrev nBuf : Space → Nat
  | .hbm => 11
  | .vmem => 13
  | .smem => 0
  | _ => 0

abbrev bufTy : (tb : Table) → Fin (tcTables nBuf tb) → BufTy
  | .hbm, ⟨0, _⟩ => ⟨S8x200x128, .f32⟩
  | .hbm, ⟨1, _⟩ => ⟨S8x200x200x16, .f32⟩
  | .hbm, ⟨2, _⟩ => ⟨S8x200x200, .f32⟩
  | .hbm, ⟨3, _⟩ => ⟨S128x128, .f32⟩
  | .hbm, ⟨4, _⟩ => ⟨S128x16, .f32⟩
  | .hbm, ⟨5, _⟩ => ⟨S128x1, .f32⟩
  | .hbm, ⟨6, _⟩ => ⟨S128x128, .f32⟩
  | .hbm, ⟨7, _⟩ => ⟨S128, .f32⟩
  | .hbm, ⟨8, _⟩ => ⟨S8x200x200x1, .f32⟩
  | .hbm, ⟨9, _⟩ => ⟨S1x128, .f32⟩
  | .hbm, ⟨10, _⟩ => ⟨S8x200x128, .f32⟩
  | .local _ .vmem, ⟨0, _⟩ => ⟨S1x200x128, .f32⟩
  | .local _ .vmem, ⟨1, _⟩ => ⟨S1x200x128, .f32⟩
  | .local _ .vmem, ⟨2, _⟩ => ⟨S1x200x200x16, .f32⟩
  | .local _ .vmem, ⟨3, _⟩ => ⟨S1x200x200x16, .f32⟩
  | .local _ .vmem, ⟨4, _⟩ => ⟨S1x200x200x1, .f32⟩
  | .local _ .vmem, ⟨5, _⟩ => ⟨S1x200x200x1, .f32⟩
  | .local _ .vmem, ⟨6, _⟩ => ⟨S128x128, .f32⟩
  | .local _ .vmem, ⟨7, _⟩ => ⟨S128x16, .f32⟩
  | .local _ .vmem, ⟨8, _⟩ => ⟨S128x1, .f32⟩
  | .local _ .vmem, ⟨9, _⟩ => ⟨S128x128, .f32⟩
  | .local _ .vmem, ⟨10, _⟩ => ⟨S1x128, .f32⟩
  | .local _ .vmem, ⟨11, _⟩ => ⟨S1x200x128, .f32⟩
  | .local _ .vmem, ⟨12, _⟩ => ⟨S1x200x128, .f32⟩
  | _, _ => ⟨S8x200x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x200x200x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x200x200x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x200x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S8x200x200_S8x200x200x1_0_1_2 : S8x200x200.BroadcastsInDim S8x200x200x1 (![0, 1, 2] : Fin 3 → Fin S8x200x200x1.rank)
  shapeCasts_S128_S1x128 : S128.ShapeCasts S1x128
  inb_S1x200x128_S1x200x128_0_0_0 : ∀ a, (![0, 0, 0] : Fin 3 → Nat) a + S1x200x128.size a ≤ S1x200x128.size a
  h_S1x200x128 : 0 < S1x200x128.numel
  shapeCasts_S1x200x128_S200x128 : S1x200x128.ShapeCasts S200x128
  inb_S1x200x200x16_S1x200x200x16_0_0_0_0 : ∀ a, (![0, 0, 0, 0] : Fin 4 → Nat) a + S1x200x200x16.size a ≤ S1x200x200x16.size a
  h_S1x200x200x16 : 0 < S1x200x200x16.numel
  shapeCasts_S1x200x200x16_S200x200x16 : S1x200x200x16.ShapeCasts S200x200x16
  inb_S1x200x200x1_S1x200x200x1_0_0_0_0 : ∀ a, (![0, 0, 0, 0] : Fin 4 → Nat) a + S1x200x200x1.size a ≤ S1x200x200x1.size a
  h_S1x200x200x1 : 0 < S1x200x200x1.numel
  shapeCasts_S1x200x200x1_S200x200x1 : S1x200x200x1.ShapeCasts S200x200x1
  inb_S128x128_S128x128_0_0 : ∀ a, (![0, 0] : Fin 2 → Nat) a + S128x128.size a ≤ S128x128.size a
  h_S128x128 : 0 < S128x128.numel
  inb_S128x16_S128x16_0_0 : ∀ a, (![0, 0] : Fin 2 → Nat) a + S128x16.size a ≤ S128x16.size a
  h_S128x16 : 0 < S128x16.numel
  inb_S128x1_S128x1_0_0 : ∀ a, (![0, 0] : Fin 2 → Nat) a + S128x1.size a ≤ S128x1.size a
  h_S128x1 : 0 < S128x1.numel
  shapeCasts_S128x1_S128 : S128x1.ShapeCasts S128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S128 : S1x128.ShapeCasts S128
  transposes_S128x128_p1_0_S128x128 : S128x128.Transposes [1, 0] S128x128
  slices_S200x200x16_o0_0_0_S200x40x16 : S200x200x16.Slices ![0, 0, 0] S200x40x16
  slices_S200x200x1_o0_0_0_S200x40x1 : S200x200x1.Slices ![0, 0, 0] S200x40x1
  shapeCasts_S200x40x16_S8000x16 : S200x40x16.ShapeCasts S8000x16
  transposes_S128x16_p1_0_S16x128 : S128x16.Transposes [1, 0] S16x128
  shapeCasts_S8000x128_S200x40x128 : S8000x128.ShapeCasts S200x40x128
  shapeCasts_S128_S1x1x128 : S128.ShapeCasts S1x1x128
  broadcasts_S200x40x1_S200x40x128 : S200x40x1.Broadcasts S200x40x128
  broadcasts_S1x1x128_S200x40x128 : S1x1x128.Broadcasts S200x40x128
  shapeCasts_S200x128_S200x1x128 : S200x128.ShapeCasts S200x1x128
  broadcasts_S200x1x128_S200x40x128 : S200x1x128.Broadcasts S200x40x128
  reduces_S200x40x128_S200x128 : S200x40x128.Reduces [1] S200x128
  slices_S200x200x16_o0_40_0_S200x40x16 : S200x200x16.Slices ![0, 40, 0] S200x40x16
  slices_S200x200x1_o0_40_0_S200x40x1 : S200x200x1.Slices ![0, 40, 0] S200x40x1
  slices_S200x200x16_o0_80_0_S200x40x16 : S200x200x16.Slices ![0, 80, 0] S200x40x16
  slices_S200x200x1_o0_80_0_S200x40x1 : S200x200x1.Slices ![0, 80, 0] S200x40x1
  slices_S200x200x16_o0_120_0_S200x40x16 : S200x200x16.Slices ![0, 120, 0] S200x40x16
  slices_S200x200x1_o0_120_0_S200x40x1 : S200x200x1.Slices ![0, 120, 0] S200x40x1
  slices_S200x200x16_o0_160_0_S200x40x16 : S200x200x16.Slices ![0, 160, 0] S200x40x16
  slices_S200x200x1_o0_160_0_S200x40x1 : S200x200x1.Slices ![0, 160, 0] S200x40x1
  broadcasts_S1x128_S200x128 : S1x128.Broadcasts S200x128
  shapeCasts_S200x128_S1x200x128 : S200x128.ShapeCasts S1x200x128
  dot_S200x128_S128x128_S200x128_1_0_0_1_n_n_wf : DotDims.WF S200x128 S128x128 S200x128 [1] [0] [0] [1] [] []
  dot_S8000x16_S16x128_S8000x128_1_0_0_1_n_n_wf : DotDims.WF S8000x16 S16x128 S8000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x200x128.size a ≤ S8x200x128.size a
  hwx0_0 : ∀ i : grid0.Coords, EltTy.bits .f32 = 32 ∨ (Rect.block (s := S8x200x128) S1x200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x200x200x16.size a ≤ S8x200x200x16.size a
  hwx0_1 : ∀ i : grid0.Coords, EltTy.bits .f32 = 32 ∨ (Rect.block (s := S8x200x200x16) S1x200x200x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x200x200x1.size a ≤ S8x200x200x1.size a
  hwx0_2 : ∀ i : grid0.Coords, EltTy.bits .f32 = 32 ∨ (Rect.block (s := S8x200x200x1) S1x200x200x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x16.size a ≤ S128x16.size a
  hwx0_4 : ∀ i : grid0.Coords, EltTy.bits .f32 = 32 ∨ (Rect.block (s := S128x16) S128x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x200x128.size a ≤ S8x200x128.size a
  hwx0_8 : ∀ i : grid0.Coords, EltTy.bits .f32 = 32 ∨ (Rect.block (s := S8x200x128) S1x200x128.size (cc0_transform_8 i) (hinb0_8 i)).WholeWords (EltTy.packing .f32)

variable [Facts₀]

def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf
def dot_S8000x16_S16x128_S8000x128_1_0_0_1_n_n : DotDims S8000x16 S16x128 S8000x128 where
  lhsContracting := [1]
  rhsContracting := [0]
  lhsNonContracting := [0]
  rhsNonContracting := [1]
  lhsBatch := []
  rhsBatch := []
  wf := dot_S8000x16_S16x128_S8000x128_1_0_0_1_n_n_wf

abbrev win0_0 : Pipeline.Window sig grid0 :=
  Pipeline.Window.ofSpec (Memref.whole main_arg0) S1x200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x200x200x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x200x200x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x200x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x200x128 : Shape := ⟨3, ![8, 200, 128]⟩
abbrev S8x200x200x16 : Shape := ⟨4, ![8, 200, 200, 16]⟩
abbrev S8x200x200 : Shape := ⟨3, ![8, 200, 200]⟩
abbrev S128x128 : Shape := ⟨2, ![128, 128]⟩
abbrev S128x16 : Shape := ⟨2, ![128, 16]⟩
abbrev S128x1 : Shape := ⟨2, ![128, 1]⟩
abbrev S128 : Shape := ⟨1, ![128]⟩
abbrev S8x200x1x128 : Shape := ⟨4, ![8, 200, 1, 128]⟩
abbrev S8x200x200x128 : Shape := ⟨4, ![8, 200, 200, 128]⟩
abbrev S8x200x200x1 : Shape := ⟨4, ![8, 200, 200, 1]⟩
abbrev S1x1x1x128 : Shape := ⟨4, ![1, 1, 1, 128]⟩
abbrev S_ : Shape := ⟨0, ![]⟩
abbrev S1x1x128 : Shape := ⟨3, ![1, 1, 128]⟩

abbrev nBuf : Space → Nat
  | .hbm => 30
  | .vmem => 0
  | .smem => 0
  | _ => 0

abbrev bufTy : (tb : Table) → Fin (tcTables nBuf tb) → BufTy
  | .hbm, ⟨0, _⟩ => ⟨S8x200x128, .f32⟩
  | .hbm, ⟨1, _⟩ => ⟨S8x200x200x16, .f32⟩
  | .hbm, ⟨2, _⟩ => ⟨S8x200x200, .f32⟩
  | .hbm, ⟨3, _⟩ => ⟨S128x128, .f32⟩
  | .hbm, ⟨4, _⟩ => ⟨S128x16, .f32⟩
  | .hbm, ⟨5, _⟩ => ⟨S128x1, .f32⟩
  | .hbm, ⟨6, _⟩ => ⟨S128x128, .f32⟩
  | .hbm, ⟨7, _⟩ => ⟨S128, .f32⟩
  | .hbm, ⟨8, _⟩ => ⟨S8x200x128, .f32⟩
  | .hbm, ⟨9, _⟩ => ⟨S8x200x1x128, .f32⟩
  | .hbm, ⟨10, _⟩ => ⟨S8x200x200x128, .f32⟩
  | .hbm, ⟨11, _⟩ => ⟨S8x200x200x1, .f32⟩
  | .hbm, ⟨12, _⟩ => ⟨S128, .f32⟩
  | .hbm, ⟨13, _⟩ => ⟨S1x1x1x128, .f32⟩
  | .hbm, ⟨14, _⟩ => ⟨S8x200x200x128, .f32⟩
  | .hbm, ⟨15, _⟩ => ⟨S8x200x200x128, .f32⟩
  | .hbm, ⟨16, _⟩ => ⟨S8x200x200x128, .f32⟩
  | .hbm, ⟨17, _⟩ => ⟨S8x200x200x128, .f32⟩
  | .hbm, ⟨18, _⟩ => ⟨S8x200x200x128, .f32⟩
  | .hbm, ⟨19, _⟩ => ⟨S8x200x200x128, .f32⟩
  | .hbm, ⟨20, _⟩ => ⟨S8x200x200x128, .f32⟩
  | .hbm, ⟨21, _⟩ => ⟨S_, .f32⟩
  | .hbm, ⟨22, _⟩ => ⟨S8x200x128, .f32⟩
  | .hbm, ⟨23, _⟩ => ⟨S_, .f32⟩
  | .hbm, ⟨24, _⟩ => ⟨S8x200x128, .f32⟩
  | .hbm, ⟨25, _⟩ => ⟨S8x200x128, .f32⟩
  | .hbm, ⟨26, _⟩ => ⟨S8x200x128, .f32⟩
  | .hbm, ⟨27, _⟩ => ⟨S1x1x128, .f32⟩
  | .hbm, ⟨28, _⟩ => ⟨S8x200x128, .f32⟩
  | .hbm, ⟨29, _⟩ => ⟨S8x200x128, .f32⟩
  | _, _ => ⟨S8x200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S8x200x128_S8x200x1x128_0_1_3 : S8x200x128.BroadcastsInDim S8x200x1x128 (![0, 1, 3] : Fin 3 → Fin S8x200x1x128.rank)
  bcast_S8x200x200_S8x200x200x1_0_1_2 : S8x200x200.BroadcastsInDim S8x200x200x1 (![0, 1, 2] : Fin 3 → Fin S8x200x200x1.rank)
  shapeCasts_S128x1_S128 : S128x1.ShapeCasts S128
  bcast_S128_S1x1x1x128_3 : S128.BroadcastsInDim S1x1x1x128 (![3] : Fin 1 → Fin S1x1x1x128.rank)
  bcast_S8x200x200x1_S8x200x200x128_0_1_2_3 : S8x200x200x1.BroadcastsInDim S8x200x200x128 (![0, 1, 2, 3] : Fin 4 → Fin S8x200x200x128.rank)
  bcast_S1x1x1x128_S8x200x200x128_0_1_2_3 : S1x1x1x128.BroadcastsInDim S8x200x200x128 (![0, 1, 2, 3] : Fin 4 → Fin S8x200x200x128.rank)
  bcast_S8x200x1x128_S8x200x200x128_0_1_2_3 : S8x200x1x128.BroadcastsInDim S8x200x200x128 (![0, 1, 2, 3] : Fin 4 → Fin S8x200x200x128.rank)
  reducesTo_S8x200x200x128_S8x200x128_d2 : S8x200x200x128.ReducesTo [2] S8x200x128
  h_S_ : 0 < S_.numel
  bcast_S_S8x200x128 : S_.BroadcastsInDim S8x200x128 (![] : Fin 0 → Fin S8x200x128.rank)
  bcast_S128_S1x1x128_2 : S128.BroadcastsInDim S1x1x128 (![2] : Fin 1 → Fin S1x1x128.rank)
  bcast_S1x1x128_S8x200x128_0_1_2 : S1x1x128.BroadcastsInDim S8x200x128 (![0, 1, 2] : Fin 3 → Fin S8x200x128.rank)
  dot_S8x200x128_S128x128_S8x200x128_2_1_01_0_n_n_wf : DotDims.WF S8x200x128 S128x128 S8x200x128 [2] [1] [0, 1] [0] [] []
  dot_S8x200x200x16_S128x16_S8x200x200x128_3_1_012_0_n_n_wf : DotDims.WF S8x200x200x16 S128x16 S8x200x200x128 [3] [1] [0, 1, 2] [0] [] []

variable [Facts₀]

def dot_S8x200x128_S128x128_S8x200x128_2_1_01_0_n_n : DotDims S8x200x128 S128x128 S8x200x128 where
  lhsContracting := [2]
  rhsContracting := [1]
  lhsNonContracting := [0, 1]
  rhsNonContracting := [0]
  lhsBatch := []
  rhsBatch := []
  wf := dot_S8x200x128_S128x128_S8x200x128_2_1_01_0_n_n_wf
def dot_S8x200x200x16_S128x16_S8x200x200x128_3_1_012_0_n_n : DotDims S8x200x200x16 S128x16 S8x200x200x128 where
  lhsContracting := [3]
  rhsContracting := [1]
  lhsNonContracting := [0, 1, 2]
  rhsNonContracting := [0]
  lhsBatch := []
  rhsBatch := []
  wf := dot_S8x200x200x16_S128x16_S8x200x200x128_3_1_012_0_n_n_wf

class Facts : Prop extends Facts₀ where

variable [Facts]
-- ==== Proof.MeanMessage.lean ====
/-
  What both programs compute, as one function of the eight argument arrays on the extended reals.

  For a batch `b`, a node `n` and an output feature `f`:

    out[b,n,f]   = (Σ_d agg[b,n,d] · W_out[f,d]) + b_out[f]
    agg[b,n,d]   = (0 + Σ_{m<200} msg[b,n,m,d]) · (1/200)
    msg[b,n,m,d] = tanh ((hi[b,n,d] + ej[b,n,m,d]) + W[b,n,m] · W_weight[d,0])
    hi[b,n,d]    = Σ_e h[b,n,e] · W_node[d,e]
    ej[b,n,m,d]  = Σ_k ef[b,n,m,k] · W_edge[d,k]

  The mean over the 200 neighbours is where the two programs are arranged differently: one adds the 200 messages
  in one sum and divides by 200; the other adds them forty at a time onto a running total that starts at zero and
  multiplies by the reciprocal. `sum_tiles` is the regrouping (a fact about any commutative monoid, so it holds
  with infinite summands too) and `div_200` the quotient as a product, on every extended real.
-/
import Idealize.ShloMosaic.PureOps.Ideal
import Idealize.ShloMosaic.PureOps.Ideal.Laws
import Idealize.ShloMosaic.Lib.ValueIdx

noncomputable section

open scoped BigOperators

namespace Cert.MeanMessage

open Idealize.ShloMosaic Idealize.ShloMosaic.ValueIdx

/-- The message neighbour `m` contributes to feature `d` of node `n` in batch `b`. -/
def msg (h : (⟨3, ![8, 200, 128]⟩ : Shape).Idx → EReal) (ef : (⟨4, ![8, 200, 200, 16]⟩ : Shape).Idx → EReal)
    (W : (⟨3, ![8, 200, 200]⟩ : Shape).Idx → EReal) (Wn : (⟨2, ![128, 128]⟩ : Shape).Idx → EReal)
    (We : (⟨2, ![128, 16]⟩ : Shape).Idx → EReal) (Ww : (⟨2, ![128, 1]⟩ : Shape).Idx → EReal)
    (b : Fin 8) (n m : Fin 200) (d : Fin 128) : EReal :=
  Ideal.tanh (((∑ e : Fin 128, h (ix3 b n e) * Wn (ix2 d e)) + ∑ k : Fin 16, ef (ix4 b n m k) * We (ix2 d k))
    + W (ix3 b n m) * Ww (ix2 d (0 : Fin 1)))

/-- The mean of a node's 200 messages, as the total (from zero) times the reciprocal of 200. -/
def agg (h : (⟨3, ![8, 200, 128]⟩ : Shape).Idx → EReal) (ef : (⟨4, ![8, 200, 200, 16]⟩ : Shape).Idx → EReal)
    (W : (⟨3, ![8, 200, 200]⟩ : Shape).Idx → EReal) (Wn : (⟨2, ![128, 128]⟩ : Shape).Idx → EReal)
    (We : (⟨2, ![128, 16]⟩ : Shape).Idx → EReal) (Ww : (⟨2, ![128, 1]⟩ : Shape).Idx → EReal)
    (b : Fin 8) (n : Fin 200) (d : Fin 128) : EReal :=
  (0 + ∑ m : Fin 200, msg h ef W Wn We Ww b n m d) * ((1 / 200 : ℝ) : EReal)

/-- The result array: the means projected by `W_out`, plus the bias. -/
def out (h : (⟨3, ![8, 200, 128]⟩ : Shape).Idx → EReal) (ef : (⟨4, ![8, 200, 200, 16]⟩ : Shape).Idx → EReal)
    (W : (⟨3, ![8, 200, 200]⟩ : Shape).Idx → EReal) (Wn : (⟨2, ![128, 128]⟩ : Shape).Idx → EReal)
    (We : (⟨2, ![128, 16]⟩ : Shape).Idx → EReal) (Ww : (⟨2, ![128, 1]⟩ : Shape).Idx → EReal)
    (Wo : (⟨2, ![128, 128]⟩ : Shape).Idx → EReal) (bo : (⟨1, ![128]⟩ : Shape).Idx → EReal) :
    (⟨3, ![8, 200, 128]⟩ : Shape).Idx → EReal := fun i =>
  (∑ d : Fin 128, agg h ef W Wn We Ww (i 0) (i 1) d * Wo (ix2 (i 2) d)) + bo (ix1 (i 2))

/-- A sum over 200 terms is the five sums over its consecutive stretches of forty, added in order. -/
theorem sum_tiles {M : Type*} [AddCommMonoid M] (μ : Fin 200 → M) :
    ∑ m, μ m = ((((∑ j : Fin 40, μ ⟨0 + j.val, by omega⟩) + ∑ j : Fin 40, μ ⟨40 + j.val, by omega⟩)
      + ∑ j : Fin 40, μ ⟨80 + j.val, by omega⟩) + ∑ j : Fin 40, μ ⟨120 + j.val, by omega⟩)
      + ∑ j : Fin 40, μ ⟨160 + j.val, by omega⟩ := by
  show ∑ m : Fin (40 + 40 + 40 + 40 + 40), μ m = _
  rw [Fin.sum_univ_add, Fin.sum_univ_add, Fin.sum_univ_add, Fin.sum_univ_add]
  refine congrArg₂ (· + ·) (congrArg₂ (· + ·) (congrArg₂ (· + ·) (congrArg₂ (· + ·) ?_ ?_) ?_) ?_) ?_ <;>
    refine Finset.sum_congr rfl fun j _ => congrArg μ (Fin.ext ?_) <;>
    simp only [Fin.coe_castAdd, Fin.coe_natAdd] <;> omega

/-- The word `200.0` denotes the real number 200. -/
theorem ofBits_200 : Ideal.ofBits .f32 0x43480000#32 = ((200 : ℝ) : EReal) := by
  simp [Ideal.ofBits, Ideal.ieee, -EReal.coe_mul]; norm_num

/-- Dividing by `200.0` is multiplying by 1/200, on every extended real. -/
theorem div_200 (x : EReal) : Ideal.div x (Ideal.ofBits .f32 0x43480000#32) = x * ((1 / 200 : ℝ) : EReal) := by
  rw [ofBits_200]
  exact Ideal.div_coe (by norm_num) x

end Cert.MeanMessage

end
-- ==== Proof.RefValue.lean ====
/-
  The reference program's result, read at an index, is `MeanMessage.out` of its arguments: its operations are
  the formula's, one for one — two contractions, the broadcast sum, `tanh`, one sum over the 200 neighbours,
  the division by 200 (a product with 1/200 on every extended real), the output contraction and the bias.
-/
import proofs.«171130_j6047313952962_1_alg».proof.Proof.Gen.ReferenceIdeal.Read
import proofs.«171130_j6047313952962_1_alg».proof.Proof.MeanMessage

noncomputable section

open scoped BigOperators

namespace Cert.MeanMessage.Reference

open Cert.ReferenceIdeal Cert.ReferenceIdeal.Read Idealize.ShloMosaic Idealize.ShloMosaic.ValueIdx

theorem result_eq (x0 : (⟨S8x200x128, .f32⟩ : BufTy).Contents (Elt Ideal)) (x1 : (⟨S8x200x200x16, .f32⟩ : BufTy).Contents (Elt Ideal))
    (x2 : (⟨S8x200x200, .f32⟩ : BufTy).Contents (Elt Ideal)) (x3 : (⟨S128x128, .f32⟩ : BufTy).Contents (Elt Ideal))
    (x4 : (⟨S128x16, .f32⟩ : BufTy).Contents (Elt Ideal)) (x5 : (⟨S128x1, .f32⟩ : BufTy).Contents (Elt Ideal))
    (x6 : (⟨S128x128, .f32⟩ : BufTy).Contents (Elt Ideal)) (x7 : (⟨S128, .f32⟩ : BufTy).Contents (Elt Ideal)) :
    val_main_v19 (F := Ideal) x0 x1 x2 x3 x4 x5 x6 x7 = Cert.MeanMessage.out x0 x1 x2 x3 x4 x5 x6 x7 := by
  funext i
  rw [val_main_v19_apply, val_main_v16_apply, val_main_v18_apply, val_main_v17_apply]
  simp only [val_main_v15_apply, val_main_v14_apply, val_main_cst_0_apply, val_main_v13_apply, val_main_cst_apply,
    val_main_v12_apply, val_main_v11_apply, val_main_v10_apply, val_main_v9_apply, val_main_v1_apply, val_main_v0_apply,
    val_main_v2_apply, val_main_v8_apply, val_main_v6_apply, val_main_v3_apply, val_main_v7_apply, val_main_v5_apply,
    val_main_v4_apply]
  have e0 : ∀ (k : Fin 128) (m : Fin 200) (e : Fin 128),
      lidx_main_v0 (idx_main_v1 (idx_main_v9 (idx_main_v13 (lidx_main_v16 i k) m))) e = ix3 (i 0) (i 1) e :=
    fun k m e => funext fun a => Fin.ext (by match a with | ⟨0, _⟩ => rfl | ⟨1, _⟩ => rfl | ⟨2, _⟩ => rfl)
  have e1 : ∀ (k : Fin 128) (m : Fin 200) (e : Fin 128),
      ridx_main_v0 (idx_main_v1 (idx_main_v9 (idx_main_v13 (lidx_main_v16 i k) m))) e = ix2 k e :=
    fun k m e => funext fun a => Fin.ext (by match a with | ⟨0, _⟩ => rfl | ⟨1, _⟩ => rfl)
  have e2 : ∀ (k : Fin 128) (m : Fin 200) (q : Fin 16),
      lidx_main_v2 (idx_main_v13 (lidx_main_v16 i k) m) q = ix4 (i 0) (i 1) m q :=
    fun k m q => funext fun a => Fin.ext (by match a with | ⟨0, _⟩ => rfl | ⟨1, _⟩ => rfl | ⟨2, _⟩ => rfl | ⟨3, _⟩ => rfl)
  have e3 : ∀ (k : Fin 128) (m : Fin 200) (q : Fin 16),
      ridx_main_v2 (idx_main_v13 (lidx_main_v16 i k) m) q = ix2 k q :=
    fun k m q => funext fun a => Fin.ext (by match a with | ⟨0, _⟩ => rfl | ⟨1, _⟩ => rfl)
  have e4 : ∀ (k : Fin 128) (m : Fin 200),
      idx_main_v3 (idx_main_v6 (idx_main_v13 (lidx_main_v16 i k) m)) = ix3 (i 0) (i 1) m :=
    fun k m => funext fun a => Fin.ext (by match a with | ⟨0, _⟩ => rfl | ⟨1, _⟩ => rfl | ⟨2, _⟩ => rfl)
  have e5 : ∀ (k : Fin 128) (m : Fin 200),
      idx_main_v4 (idx_main_v5 (idx_main_v7 (idx_main_v13 (lidx_main_v16 i k) m))) = ix2 k (0 : Fin 1) :=
    fun k m => funext fun a => Fin.ext (by match a with | ⟨0, _⟩ => exact Nat.div_one _ | ⟨1, _⟩ => rfl)
  have e6 : ∀ k : Fin 128, ridx_main_v16 i k = ix2 (i 2) k :=
    fun k => funext fun a => Fin.ext (by match a with | ⟨0, _⟩ => rfl | ⟨1, _⟩ => rfl)
  have e7 : idx_main_v17 (idx_main_v18 i) = ix1 (i 2) :=
    funext fun a => Fin.ext (by match a with | ⟨0, _⟩ => rfl)
  simp only [e0, e1, e2, e3, e4, e5, e6, e7, Ideal.addf_def, Ideal.mulf_def, Ideal.hostDivf_def, Ideal.hostUnary_tanh_def,
    Ideal.ofBits_def, Cert.MeanMessage.div_200, Ideal.ofBits_zero_f32]
  rfl

end Cert.MeanMessage.Reference

end
-- ==== Proof.Products.lean ====
/-
  The kernel's two kinds of matrix product, read at one entry. A product accumulated into the zero matrix is,
  at row `r` and column `c`, the sum over the contracted axis of the left operand's row entry times the right
  operand's column entry — no order of accumulation is left at the ideal values.
-/
import proofs.«171130_j6047313952962_1_alg».proof.Proof.Gen.KernelIdeal
import Idealize.ShloMosaic.Lib.ValueIdx
import Idealize.ShloMosaic.PureOps.Ideal.Laws

noncomputable section

open scoped BigOperators

namespace Cert.MeanMessage.Kernel

open Cert.KernelIdeal Cert.KernelIdeal.Facts₀ Cert.KernelIdeal.Facts Idealize.ShloMosaic Idealize.ShloMosaic.ValueIdx

theorem edge_product_apply_lhs0 (j : S8000x128.Idx) (q : dot_S8000x16_S16x128_S8000x128_1_0_0_1_n_n.contr.Idx) : (dot_S8000x16_S16x128_S8000x128_1_0_0_1_n_n.lhsIdx j q 0).val = (j 0).val := by
  unfold DotDims.lhsIdx
  rw [dif_neg (show ¬(0 : Fin S8000x16.rank) ∈ dot_S8000x16_S16x128_S8000x128_1_0_0_1_n_n.lhsBatch by decide),
    dif_pos (show (0 : Fin S8000x16.rank) ∈ dot_S8000x16_S16x128_S8000x128_1_0_0_1_n_n.lhsNonContracting by decide)]
  rfl
theorem edge_product_apply_lhs1 (j : S8000x128.Idx) (q : dot_S8000x16_S16x128_S8000x128_1_0_0_1_n_n.contr.Idx) : (dot_S8000x16_S16x128_S8000x128_1_0_0_1_n_n.lhsIdx j q 1).val = (q ⟨0, by decide⟩).val :=
  dot_S8000x16_S16x128_S8000x128_1_0_0_1_n_n.lhsIdx_val_of_single rfl j q
theorem edge_product_apply_rhs0 (j : S8000x128.Idx) (q : dot_S8000x16_S16x128_S8000x128_1_0_0_1_n_n.contr.Idx) : (dot_S8000x16_S16x128_S8000x128_1_0_0_1_n_n.rhsIdx j q 0).val = (q ⟨0, by decide⟩).val :=
  dot_S8000x16_S16x128_S8000x128_1_0_0_1_n_n.rhsIdx_val_of_single rfl j q
theorem edge_product_apply_rhs1 (j : S8000x128.Idx) (q : dot_S8000x16_S16x128_S8000x128_1_0_0_1_n_n.contr.Idx) : (dot_S8000x16_S16x128_S8000x128_1_0_0_1_n_n.rhsIdx j q 1).val = (j 1).val := by
  unfold DotDims.rhsIdx
  rw [dif_neg (show ¬(1 : Fin S16x128.rank) ∈ dot_S8000x16_S16x128_S8000x128_1_0_0_1_n_n.rhsBatch by decide),
    dif_pos (show (1 : Fin S16x128.rank) ∈ dot_S8000x16_S16x128_S8000x128_1_0_0_1_n_n.rhsNonContracting by decide)]
  rfl

/-- The edge projection of a stretch: [8000, 16] times [16, 128], contracted over the 16 edge features. -/
theorem edge_product_apply (x : FVec Ideal S8000x16 .f32) (y : FVec Ideal S16x128 .f32) (r : Fin 8000) (c : Fin 128) :
    matmul dot_S8000x16_S16x128_S8000x128_1_0_0_1_n_n none x y (constant S8000x128 .f32 0x00000000#32) (ix2 r c)
      = ∑ q : Fin 16, x (ix2 r q) * y (ix2 q c) := by
  refine (Ideal.matmul_constant_zero_apply dot_S8000x16_S16x128_S8000x128_1_0_0_1_n_n none x y (ix2 r c)).trans ?_
  rw [← Equiv.sum_comp (contrEquiv1 dot_S8000x16_S16x128_S8000x128_1_0_0_1_n_n 16 rfl rfl).symm]
  refine Finset.sum_congr rfl fun q _ => ?_
  have hq := contrEquiv1_symm_val dot_S8000x16_S16x128_S8000x128_1_0_0_1_n_n 16 rfl rfl q
  have el : dot_S8000x16_S16x128_S8000x128_1_0_0_1_n_n.lhsIdx (ix2 r c) ((contrEquiv1 dot_S8000x16_S16x128_S8000x128_1_0_0_1_n_n 16 rfl rfl).symm q) = ix2 r q :=
    funext fun a => Fin.ext (by
      match a with
      | ⟨0, _⟩ => exact edge_product_apply_lhs0 _ _
      | ⟨1, _⟩ => exact (edge_product_apply_lhs1 _ _).trans hq)
  have er : dot_S8000x16_S16x128_S8000x128_1_0_0_1_n_n.rhsIdx (ix2 r c) ((contrEquiv1 dot_S8000x16_S16x128_S8000x128_1_0_0_1_n_n 16 rfl rfl).symm q) = ix2 q c :=
    funext fun a => Fin.ext (by
      match a with
      | ⟨0, _⟩ => exact (edge_product_apply_rhs0 _ _).trans hq
      | ⟨1, _⟩ => exact edge_product_apply_rhs1 _ _)
  rw [el, er]

theorem node_product_apply_lhs0 (j : S200x128.Idx) (q : dot_S200x128_S128x128_S200x128_1_0_0_1_n_n.contr.Idx) : (dot_S200x128_S128x128_S200x128_1_0_0_1_n_n.lhsIdx j q 0).val = (j 0).val := by
  unfold DotDims.lhsIdx
  rw [dif_neg (show ¬(0 : Fin S200x128.rank) ∈ dot_S200x128_S128x128_S200x128_1_0_0_1_n_n.lhsBatch by decide),
    dif_pos (show (0 : Fin S200x128.rank) ∈ dot_S200x128_S128x128_S200x128_1_0_0_1_n_n.lhsNonContracting by decide)]
  rfl
theorem node_product_apply_lhs1 (j : S200x128.Idx) (q : dot_S200x128_S128x128_S200x128_1_0_0_1_n_n.contr.Idx) : (dot_S200x128_S128x128_S200x128_1_0_0_1_n_n.lhsIdx j q 1).val = (q ⟨0, by decide⟩).val :=
  dot_S200x128_S128x128_S200x128_1_0_0_1_n_n.lhsIdx_val_of_single rfl j q
theorem node_product_apply_rhs0 (j : S200x128.Idx) (q : dot_S200x128_S128x128_S200x128_1_0_0_1_n_n.contr.Idx) : (dot_S200x128_S128x128_S200x128_1_0_0_1_n_n.rhsIdx j q 0).val = (q ⟨0, by decide⟩).val :=
  dot_S200x128_S128x128_S200x128_1_0_0_1_n_n.rhsIdx_val_of_single rfl j q
theorem node_product_apply_rhs1 (j : S200x128.Idx) (q : dot_S200x128_S128x128_S200x128_1_0_0_1_n_n.contr.Idx) : (dot_S200x128_S128x128_S200x128_1_0_0_1_n_n.rhsIdx j q 1).val = (j 1).val := by
  unfold DotDims.rhsIdx
  rw [dif_neg (show ¬(1 : Fin S128x128.rank) ∈ dot_S200x128_S128x128_S200x128_1_0_0_1_n_n.rhsBatch by decide),
    dif_pos (show (1 : Fin S128x128.rank) ∈ dot_S200x128_S128x128_S200x128_1_0_0_1_n_n.rhsNonContracting by decide)]
  rfl

/-- The node projection and the output projection: [200, 128] times [128, 128], contracted over the 128 features. -/
theorem node_product_apply (x : FVec Ideal S200x128 .f32) (y : FVec Ideal S128x128 .f32) (r : Fin 200) (c : Fin 128) :
    matmul dot_S200x128_S128x128_S200x128_1_0_0_1_n_n none x y (constant S200x128 .f32 0x00000000#32) (ix2 r c)
      = ∑ q : Fin 128, x (ix2 r q) * y (ix2 q c) := by
  refine (Ideal.matmul_constant_zero_apply dot_S200x128_S128x128_S200x128_1_0_0_1_n_n none x y (ix2 r c)).trans ?_
  rw [← Equiv.sum_comp (contrEquiv1 dot_S200x128_S128x128_S200x128_1_0_0_1_n_n 128 rfl rfl).symm]
  refine Finset.sum_congr rfl fun q _ => ?_
  have hq := contrEquiv1_symm_val dot_S200x128_S128x128_S200x128_1_0_0_1_n_n 128 rfl rfl q
  have el : dot_S200x128_S128x128_S200x128_1_0_0_1_n_n.lhsIdx (ix2 r c) ((contrEquiv1 dot_S200x128_S128x128_S200x128_1_0_0_1_n_n 128 rfl rfl).symm q) = ix2 r q :=
    funext fun a => Fin.ext (by
      match a with
      | ⟨0, _⟩ => exact node_product_apply_lhs0 _ _
      | ⟨1, _⟩ => exact (node_product_apply_lhs1 _ _).trans hq)
  have er : dot_S200x128_S128x128_S200x128_1_0_0_1_n_n.rhsIdx (ix2 r c) ((contrEquiv1 dot_S200x128_S128x128_S200x128_1_0_0_1_n_n 128 rfl rfl).symm q) = ix2 q c :=
    funext fun a => Fin.ext (by
      match a with
      | ⟨0, _⟩ => exact (node_product_apply_rhs0 _ _).trans hq
      | ⟨1, _⟩ => exact node_product_apply_rhs1 _ _)
  rw [el, er]

end Cert.MeanMessage.Kernel

end
-- ==== Proof.Tile.lean ====
/-
  One stretch of forty neighbours, as the kernel computes it: the edge projection of the stretch's 200·40 rows as one
  [8000, 16] × [16, 128] product, the node projection and the scalar edge weight broadcast along the stretch, `tanh`,
  and the sum over the forty neighbours. Read at node `n` and feature `d` it is the sum over `j < 40` of
  tanh ((hi[n,d] + Σ_k rows[40 n + j, k] · W_edge[d,k]) + w[n,j] · W_weight[d]).
-/
import proofs.«171130_j6047313952962_1_alg».proof.Proof.Products
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.MeanMessage.Kernel

open Cert.KernelIdeal Cert.KernelIdeal.Facts₀ Cert.KernelIdeal.Facts Idealize.ShloMosaic Idealize.ShloMosaic.ValueIdx

section AnyInstance
variable {F : FTy → Type} [FloatOps F]

/-- The forty-neighbour partial total: `rows` are the stretch's edge features flattened to [200·40, 16], `ws` its
    scalar edge weights, `we` the edge projection's matrix, `ww` the weight column, `hi` the node projection. -/
def tile (rows : FVec F S8000x16 .f32) (ws : FVec F S200x40x1 .f32) (we : Vec F S128x16 .f32) (ww : FVec F S128 .f32)
    (hi : FVec F S200x128 .f32) : FVec F S200x128 .f32 :=
  multiReduction .add [1] S200x128
    (tanh (addf
      (addf (broadcastTo S200x40x128 (shapeCast S200x1x128 hi shapeCasts_S200x128_S200x1x128) broadcasts_S200x1x128_S200x40x128)
        (shapeCast S200x40x128
          (matmul dot_S8000x16_S16x128_S8000x128_1_0_0_1_n_n none rows (transpose S16x128 [1, 0] we transposes_S128x16_p1_0_S16x128)
            (constant S8000x128 .f32 0x00000000#32))
          shapeCasts_S8000x128_S200x40x128))
      (mulf (broadcastTo S200x40x128 ws broadcasts_S200x40x1_S200x40x128)
        (broadcastTo S200x40x128 (shapeCast S1x1x128 ww shapeCasts_S128_S1x1x128) broadcasts_S1x1x128_S200x40x128))))
    0x00000000#32 reduces_S200x40x128_S200x128 (.inl rfl) rfl

end AnyInstance

theorem tile_apply (rows : FVec Ideal S8000x16 .f32) (ws : FVec Ideal S200x40x1 .f32) (we : Vec Ideal S128x16 .f32)
    (ww : FVec Ideal S128 .f32) (hi : FVec Ideal S200x128 .f32) (n : Fin 200) (d : Fin 128) :
    tile rows ws we ww hi (ix2 n d)
      = ∑ j : Fin 40, Ideal.tanh ((hi (ix2 n d) + ∑ k : Fin 16, rows (ix2 ⟨40 * n.val + j.val, by omega⟩ k) * we (ix2 d k))
          + ws (ix3 n j (0 : Fin 1)) * ww (ix1 d)) := by
  unfold tile
  refine (Ideal.multiReduction_add_single _ 0x00000000#32 reduces_S200x40x128_S200x128 (.inl rfl) rfl (ix2 n d)).trans ?_
  refine Finset.sum_congr rfl fun (j : Fin 40) _ => ?_
  have hl : reduces_S200x40x128_S200x128.lift (ix2 n d) j = ix3 n j d :=
    funext fun c => Fin.ext (by match c with | ⟨0, _⟩ => rfl | ⟨1, _⟩ => rfl | ⟨2, _⟩ => rfl)
  rw [hl]
  -- the node projection does not depend on the neighbour
  have e_hi : broadcastTo S200x40x128 (shapeCast S200x1x128 hi shapeCasts_S200x128_S200x1x128) broadcasts_S200x1x128_S200x40x128
      (ix3 n j d) = hi (ix2 n d) :=
    (broadcastTo_apply _ broadcasts_S200x1x128_S200x40x128 (ix3 n j d) (ix3 n (0 : Fin 1) d) (fun a => by
      match a with
      | ⟨0, _⟩ => show n.val = if (200 : ℕ) = 1 then 0 else n.val; rw [if_neg (by decide)]
      | ⟨1, _⟩ => show 0 = if (1 : ℕ) = 1 then 0 else j.val; rw [if_pos rfl]
      | ⟨2, _⟩ => show d.val = if (128 : ℕ) = 1 then 0 else d.val; rw [if_neg (by decide)])).trans
    (shapeCast_apply hi shapeCasts_S200x128_S200x1x128 (ix3 n (0 : Fin 1) d) (ix2 n d) (by
      rw [Shape.rowMajor_val_two, Shape.rowMajor_val_three]
      show n.val * 128 + d.val = (n.val * 1 + 0) * 128 + d.val
      omega))
  -- neighbour `j` of node `n` is row `40 n + j` of the flattened stretch
  have e_ej : shapeCast S200x40x128
        (matmul dot_S8000x16_S16x128_S8000x128_1_0_0_1_n_n none rows (transpose S16x128 [1, 0] we transposes_S128x16_p1_0_S16x128)
          (constant S8000x128 .f32 0x00000000#32))
        shapeCasts_S8000x128_S200x40x128 (ix3 n j d)
      = ∑ k : Fin 16, rows (ix2 ⟨40 * n.val + j.val, by omega⟩ k) * we (ix2 d k) :=
    (shapeCast_apply _ shapeCasts_S8000x128_S200x40x128 (ix3 n j d) (ix2 (⟨40 * n.val + j.val, by omega⟩ : Fin 8000) d) (by
      rw [Shape.rowMajor_val_two, Shape.rowMajor_val_three]
      show (40 * n.val + j.val) * 128 + d.val = (n.val * 40 + j.val) * 128 + d.val
      omega)).trans
    ((edge_product_apply rows _ ⟨40 * n.val + j.val, by omega⟩ d).trans
      (Finset.sum_congr rfl fun k _ => by rw [transpose_ix2_apply]))
  -- the scalar edge weight does not depend on the feature
  have e_w : broadcastTo S200x40x128 ws broadcasts_S200x40x1_S200x40x128 (ix3 n j d) = ws (ix3 n j (0 : Fin 1)) :=
    broadcastTo_apply ws broadcasts_S200x40x1_S200x40x128 (ix3 n j d) (ix3 n j (0 : Fin 1)) (fun a => by
      match a with
      | ⟨0, _⟩ => show n.val = if (200 : ℕ) = 1 then 0 else n.val; rw [if_neg (by decide)]
      | ⟨1, _⟩ => show j.val = if (40 : ℕ) = 1 then 0 else j.val; rw [if_neg (by decide)]
      | ⟨2, _⟩ => show 0 = if (1 : ℕ) = 1 then 0 else d.val; rw [if_pos rfl])
  -- the weight column depends on the feature only
  have e_ww : broadcastTo S200x40x128 (shapeCast S1x1x128 ww shapeCasts_S128_S1x1x128) broadcasts_S1x1x128_S200x40x128
      (ix3 n j d) = ww (ix1 d) :=
    (broadcastTo_apply _ broadcasts_S1x1x128_S200x40x128 (ix3 n j d) (ix3 (0 : Fin 1) (0 : Fin 1) d) (fun a => by
      match a with
      | ⟨0, _⟩ => show 0 = if (1 : ℕ) = 1 then 0 else n.val; rw [if_pos rfl]
      | ⟨1, _⟩ => show 0 = if (1 : ℕ) = 1 then 0 else j.val; rw [if_pos rfl]
      | ⟨2, _⟩ => show d.val = if (128 : ℕ) = 1 then 0 else d.val; rw [if_neg (by decide)])).trans
    (shapeCast_apply ww shapeCasts_S128_S1x1x128 (ix3 (0 : Fin 1) (0 : Fin 1) d) (ix1 d) (by
      rw [Shape.rowMajor_val_one, Shape.rowMajor_val_three]
      show d.val = (0 * 1 + 0) * 128 + d.val
      omega))
  exact congrArg Ideal.tanh (congrArg₂ (· + ·) (congrArg₂ (· + ·) e_hi e_ej) (congrArg₂ (· * ·) e_w e_ww))

end Cert.MeanMessage.Kernel

end
-- ==== Proof.Body.lean ====
/-
  What one grid point stores, as a function of its eight input blocks. The body's arithmetic is: the node projection
  `hi`; five stretches of forty neighbours (offsets 0, 40, 80, 120, 160), each added onto a running total that starts
  at zero; the total times the named reciprocal of 200; the output projection; the bias. Read at node `n` and output
  feature `f` of the block, with the blocks' entries named as entries of the whole arrays at batch `b`, this is
  `MeanMessage.out` at `(b, n, f)`: the five partial sums regroup into the one sum over the 200 neighbours.
-/
import proofs.«171130_j6047313952962_1_alg».proof.Proof.Gen.KernelIdeal.Skeleton
import proofs.«171130_j6047313952962_1_alg».proof.Proof.Tile
import proofs.«171130_j6047313952962_1_alg».proof.Proof.MeanMessage
import Idealize.ShloMosaic.PureOps.IdealRules

noncomputable section

open scoped BigOperators

namespace Cert.MeanMessage.Kernel

open Cert.KernelIdeal Cert.KernelIdeal.Gen Idealize.ShloMosaic Idealize.ShloMosaic.ValueIdx

section AnyInstance
variable {F : FTy → Type} [FloatOps F] [Named F]

/-- The stretch of forty neighbours starting at neighbour `o`: the rows `o … o + 39` of the edge features, flattened,
    and of the scalar edge weights, through `tile`. -/
def stretch (efb : FVec F S200x200x16 .f32) (wb : FVec F S200x200x1 .f32) (o : ℕ)
    (h1 : S200x200x16.Slices ![0, o, 0] S200x40x16) (h2 : S200x200x1.Slices ![0, o, 0] S200x40x1)
    (we : Vec F S128x16 .f32) (ww : FVec F S128 .f32) (hi : FVec F S200x128 .f32) : FVec F S200x128 .f32 :=
  tile (shapeCast S8000x16 (extractStridedSlice S200x40x16 ![0, o, 0] efb h1) shapeCasts_S200x40x16_S8000x16)
    (extractStridedSlice S200x40x1 ![0, o, 0] wb h2) we ww hi

/-- The running total after the five stretches, from zero. -/
def total (efb : FVec F S200x200x16 .f32) (wb : FVec F S200x200x1 .f32) (we : Vec F S128x16 .f32) (ww : FVec F S128 .f32)
    (hi : FVec F S200x128 .f32) : FVec F S200x128 .f32 :=
  addf (addf (addf (addf (addf (broadcast S200x128 (Scalar.ofBits .f32 0x00000000#32))
    (stretch efb wb 0 slices_S200x200x16_o0_0_0_S200x40x16 slices_S200x200x1_o0_0_0_S200x40x1 we ww hi))
    (stretch efb wb 40 slices_S200x200x16_o0_40_0_S200x40x16 slices_S200x200x1_o0_40_0_S200x40x1 we ww hi))
    (stretch efb wb 80 slices_S200x200x16_o0_80_0_S200x40x16 slices_S200x200x1_o0_80_0_S200x40x1 we ww hi))
    (stretch efb wb 120 slices_S200x200x16_o0_120_0_S200x40x16 slices_S200x200x1_o0_120_0_S200x40x1 we ww hi))
    (stretch efb wb 160 slices_S200x200x16_o0_160_0_S200x40x16 slices_S200x200x1_o0_160_0_S200x40x1 we ww hi)

/-- What the point stores: the mean projected by the output matrix, plus the bias, as a [1, 200, 128] block. -/
def stored (x0 : Vec F S1x200x128 .f32) (x1 : Vec F S1x200x200x16 .f32) (x2 : Vec F S1x200x200x1 .f32) (x3 : Vec F S128x128 .f32)
    (x4 : Vec F S128x16 .f32) (x5 : Vec F S128x1 .f32) (x6 : Vec F S128x128 .f32) (x7 : Vec F S1x128 .f32) : FVec F S1x200x128 .f32 :=
  shapeCast S1x200x128
    (addf
      (matmul dot_S200x128_S128x128_S200x128_1_0_0_1_n_n none
        (mulf (total (k0_pay2 x1) (k0_pay3 x2) x4 (k0_pay4 x5) (k0_pay6 x0 x3))
          (broadcast S200x128 (Named.named κ "inv_200" 0x3BA3D70A#32)))
        (transpose S128x128 [1, 0] x6 transposes_S128x128_p1_0_S128x128) (constant S200x128 .f32 0x00000000#32))
      (broadcastTo S200x128 (shapeCast S1x128 (k0_pay5 x7) shapeCasts_S128_S1x128) broadcasts_S1x128_S200x128))
    shapeCasts_S200x128_S1x200x128

/-- The body's one store writes `stored` of the blocks: its payload, composed as the body composes it, unfolds to it. -/
theorem payload_eq (x0 : Vec F S1x200x128 .f32) (x1 : Vec F S1x200x200x16 .f32) (x2 : Vec F S1x200x200x1 .f32) (x3 : Vec F S128x128 .f32)
    (x4 : Vec F S128x16 .f32) (x5 : Vec F S128x1 .f32) (x6 : Vec F S128x128 .f32) (x7 : Vec F S1x128 .f32) :
    k0_pay1 x4 (k0_pay4 x5) x6 (k0_pay5 x7) (k0_pay6 x0 x3)
      (k0_pay8 (k0_pay2 x1) (k0_pay3 x2) x4 (k0_pay4 x5) (k0_pay6 x0 x3) (k0_pay7 x0 x1 x2 x3 x4 x5))
      (k0_pay9 (k0_pay3 x2)) (k0_pay10 (k0_pay2 x1))
    = stored x0 x1 x2 x3 x4 x5 x6 x7 := rfl

end AnyInstance

/-! ## At the ideal values -/

/-- The kernel's named reciprocal is the rational 1/200. -/
theorem inv_200 : Named.named (F := Ideal) Cert.KernelIdeal.κ "inv_200" (φ := .f32) 0x3BA3D70A#32 = ((1 / 200 : ℝ) : EReal) :=
  IdealRules.named_const.ideal_named_scalar _ _ _ _ rfl

/-- A stretch read at node `n`, feature `d`: neighbour `j` of the stretch is neighbour `o + j` of the node. -/
theorem stretch_apply (efb : FVec Ideal S200x200x16 .f32) (wb : FVec Ideal S200x200x1 .f32) (o : ℕ) (ho : o + 40 ≤ 200)
    (h1 : S200x200x16.Slices ![0, o, 0] S200x40x16) (h2 : S200x200x1.Slices ![0, o, 0] S200x40x1)
    (we : Vec Ideal S128x16 .f32) (ww : FVec Ideal S128 .f32) (hi : FVec Ideal S200x128 .f32) (n : Fin 200) (d : Fin 128) :
    stretch efb wb o h1 h2 we ww hi (ix2 n d)
      = ∑ j : Fin 40, Ideal.tanh ((hi (ix2 n d) + ∑ k : Fin 16, efb (ix3 n ⟨o + j.val, by omega⟩ k) * we (ix2 d k))
          + wb (ix3 n ⟨o + j.val, by omega⟩ (0 : Fin 1)) * ww (ix1 d)) := by
  unfold stretch
  rw [tile_apply]
  refine Finset.sum_congr rfl fun j _ => ?_
  have e1 : ∀ k : Fin 16, shapeCast S8000x16 (extractStridedSlice S200x40x16 ![0, o, 0] efb h1) shapeCasts_S200x40x16_S8000x16
      (ix2 (⟨40 * n.val + j.val, by omega⟩ : Fin 8000) k) = efb (ix3 n ⟨o + j.val, by omega⟩ k) := fun k =>
    (shapeCast_apply _ shapeCasts_S200x40x16_S8000x16 (ix2 (⟨40 * n.val + j.val, by omega⟩ : Fin 8000) k) (ix3 n j k) (by
      rw [Shape.rowMajor_val_three, Shape.rowMajor_val_two]
      show (n.val * 40 + j.val) * 16 + k.val = (40 * n.val + j.val) * 16 + k.val
      omega)).trans
    (extractStridedSlice_apply ![0, o, 0] efb h1 (ix3 n j k) (ix3 n ⟨o + j.val, by omega⟩ k) (fun a => by
      match a with
      | ⟨0, _⟩ => show n.val = 0 + n.val; omega
      | ⟨1, _⟩ => show o + j.val = o + j.val; rfl
      | ⟨2, _⟩ => show k.val = 0 + k.val; omega))
  have e2 : extractStridedSlice S200x40x1 ![0, o, 0] wb h2 (ix3 n j (0 : Fin 1)) = wb (ix3 n ⟨o + j.val, by omega⟩ (0 : Fin 1)) :=
    extractStridedSlice_apply ![0, o, 0] wb h2 (ix3 n j (0 : Fin 1)) (ix3 n ⟨o + j.val, by omega⟩ (0 : Fin 1)) (fun a => by
      match a with
      | ⟨0, _⟩ => show n.val = 0 + n.val; omega
      | ⟨1, _⟩ => show o + j.val = o + j.val; rfl
      | ⟨2, _⟩ => show 0 = 0 + 0; rfl)
  simp only [e1, e2]

/-- The stored block at node `n`, output feature `f`, when the blocks' entries are the whole arrays' at batch `b`. -/
theorem stored_apply (x0 : Vec Ideal S1x200x128 .f32) (x1 : Vec Ideal S1x200x200x16 .f32) (x2 : Vec Ideal S1x200x200x1 .f32)
    (x3 : Vec Ideal S128x128 .f32) (x4 : Vec Ideal S128x16 .f32) (x5 : Vec Ideal S128x1 .f32) (x6 : Vec Ideal S128x128 .f32)
    (x7 : Vec Ideal S1x128 .f32)
    (h : (⟨3, ![8, 200, 128]⟩ : Shape).Idx → EReal) (ef : (⟨4, ![8, 200, 200, 16]⟩ : Shape).Idx → EReal)
    (W : (⟨3, ![8, 200, 200]⟩ : Shape).Idx → EReal) (bo : (⟨1, ![128]⟩ : Shape).Idx → EReal) (b : Fin 8)
    (h0 : ∀ (n : Fin 200) (e : Fin 128), x0 (ix3 (0 : Fin 1) n e) = h (ix3 b n e))
    (h1 : ∀ (n m : Fin 200) (k : Fin 16), x1 (ix4 (0 : Fin 1) n m k) = ef (ix4 b n m k))
    (h2 : ∀ (n m : Fin 200), x2 (ix4 (0 : Fin 1) n m (0 : Fin 1)) = W (ix3 b n m))
    (h7 : ∀ f : Fin 128, x7 (ix2 (0 : Fin 1) f) = bo (ix1 f))
    (n : Fin 200) (f : Fin 128) :
    stored x0 x1 x2 x3 x4 x5 x6 x7 (ix3 (0 : Fin 1) n f) = Cert.MeanMessage.out h ef W x3 x4 x5 x6 bo (ix3 b n f) := by
  have e_hi : ∀ d : Fin 128, k0_pay6 x0 x3 (ix2 n d) = ∑ e : Fin 128, h (ix3 b n e) * x3 (ix2 d e) := fun d =>
    (node_product_apply _ _ n d).trans (Finset.sum_congr rfl fun e _ => by
      rw [transpose_ix2_apply, shapeCast_1ab_ab_apply, h0])
  have e_ef : ∀ (m : Fin 200) (k : Fin 16), k0_pay2 x1 (ix3 n m k) = ef (ix4 b n m k) := fun m k =>
    (shapeCast_1abc_abc_apply x1 shapeCasts_S1x200x200x16_S200x200x16 n m k).trans (h1 n m k)
  have e_w : ∀ m : Fin 200, k0_pay3 x2 (ix3 n m (0 : Fin 1)) = W (ix3 b n m) := fun m =>
    (shapeCast_1abc_abc_apply x2 shapeCasts_S1x200x200x1_S200x200x1 n m (0 : Fin 1)).trans (h2 n m)
  have e_ww : ∀ d : Fin 128, k0_pay4 x5 (ix1 d) = x5 (ix2 d (0 : Fin 1)) := fun d =>
    shapeCast_apply x5 shapeCasts_S128x1_S128 (ix1 d) (ix2 d (0 : Fin 1)) (by
      rw [Shape.rowMajor_val_two, Shape.rowMajor_val_one]
      show d.val * 1 + 0 = d.val
      omega)
  have e_b : k0_pay5 x7 (ix1 f) = bo (ix1 f) :=
    ((shapeCast_1a_a_apply _ shapeCasts_S1x128_S128 f).trans
      (congrFun (shapeCast_self x7 shapeCasts_S1x128_S1x128) _)).trans (h7 f)
  have e_tot : ∀ d : Fin 128, total (k0_pay2 x1) (k0_pay3 x2) x4 (k0_pay4 x5) (k0_pay6 x0 x3) (ix2 n d)
      = 0 + ∑ m : Fin 200, Cert.MeanMessage.msg h ef W x3 x4 x5 b n m d := fun d => by
    unfold total
    simp only [addf_apply, broadcast_apply]
    rw [stretch_apply _ _ 0 (by norm_num), stretch_apply _ _ 40 (by norm_num), stretch_apply _ _ 80 (by norm_num),
      stretch_apply _ _ 120 (by norm_num), stretch_apply _ _ 160 (by norm_num)]
    simp only [e_hi, e_ef, e_w, e_ww]
    refine Eq.trans ?_ (congrArg (0 + ·) (Cert.MeanMessage.sum_tiles (fun m => Cert.MeanMessage.msg h ef W x3 x4 x5 b n m d)).symm)
    simp only [Ideal.ofBits_def, Ideal.ofBits_zero_f32, Cert.MeanMessage.msg, zero_add]
  have e_bias : broadcastTo S200x128 (shapeCast S1x128 (k0_pay5 x7) shapeCasts_S128_S1x128) broadcasts_S1x128_S200x128 (ix2 n f)
      = bo (ix1 f) :=
    (broadcastTo_1b_ab_apply _ broadcasts_S1x128_S200x128 n f).trans
      ((shapeCast_a_1a_apply _ shapeCasts_S128_S1x128 (0 : Fin 1) f).trans e_b)
  have e_prod : matmul dot_S200x128_S128x128_S200x128_1_0_0_1_n_n none
        (mulf (total (k0_pay2 x1) (k0_pay3 x2) x4 (k0_pay4 x5) (k0_pay6 x0 x3))
          (broadcast S200x128 (Named.named κ "inv_200" 0x3BA3D70A#32)))
        (transpose S128x128 [1, 0] x6 transposes_S128x128_p1_0_S128x128) (constant S200x128 .f32 0x00000000#32) (ix2 n f)
      = ∑ d : Fin 128, Cert.MeanMessage.agg h ef W x3 x4 x5 b n d * x6 (ix2 f d) :=
    (node_product_apply _ _ n f).trans (Finset.sum_congr rfl fun d _ => by
      rw [transpose_ix2_apply, mulf_apply, broadcast_apply, e_tot, inv_200]
      rfl)
  unfold stored
  refine (shapeCast_ab_1ab_apply _ shapeCasts_S200x128_S1x200x128 (0 : Fin 1) n f).trans ?_
  exact congrArg₂ (· + ·) e_prod e_bias

end Cert.MeanMessage.Kernel

end
-- ==== Proof.KernelValue.lean ====
/-
  From grid points to the whole result array. Grid point `t` is batch `t`: it reads row-block `t` of the node features,
  of the edge features and of the scalar edge weights (the last through a reshape the program makes before the call),
  the four weight matrices whole and the bias as one row, and writes row-block `t` of the result. What it writes is
  `MeanMessage.out` of the launched arrays restricted to that block; the eight blocks tile the result, so after the run
  the result array is `MeanMessage.out` of the launched arrays, and the arguments are as launched.
-/
import proofs.«171130_j6047313952962_1_alg».proof.Proof.Gen.KernelIdeal.Value
import proofs.«171130_j6047313952962_1_alg».proof.Proof.Body
import Idealize.ShloMosaic.Lib.Pipeline.Value
import Idealize.ShloMosaic.Lib.StableHlo.Run

noncomputable section

open Idealize.ShloMosaic Idealize.ShloMosaic.TcCoe Idealize.SL.Sem Idealize.ShloMosaic.ValueIdx Idealize.ShloMosaic.StableHlo
open Idealize.ShloMosaic.Pipeline (Dat)

namespace Cert.MeanMessage.Kernel

open Cert.KernelIdeal Cert.KernelIdeal.Gen Cert.KernelIdeal.Value

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The result array the run ends with: the formula of the launched argument arrays. -/
abbrev whole (c : Dev nD) : Buf (Elt Ideal) ((c : Thread nD τ).loc main_v2) :=
  Cert.MeanMessage.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The batch a grid point works on. -/
def batch (t : Fin cfg0.N) : Fin 8 := ⟨t.val, by have h := t.isLt; have hN : cfg0.N = 8 := N_0; omega⟩

/-- The windows' block indices, decided over the eight grid points: the three batched inputs and the result move with
    the point along the batch axis; the weights and the bias stay at block 0. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 4) = t.val ∧ win0_2.index t (1 : Fin 4) = 0 ∧ win0_2.index t (2 : Fin 4) = 0 ∧ win0_2.index t (3 : Fin 4) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 3) = t.val ∧ win0_8.index t (1 : Fin 3) = 0 ∧ win0_8.index t (2 : Fin 3) = 0) :=
  (by decide +kernel : ∀ t : Fin grid0.N, _)

/-! ## The two arrays the program makes before the call -/

/-- The scalar edge weights with a trailing unit axis. -/
theorem V_weights (c : Dev nD) : (V m c main_v0 : S8x200x200x1.Idx → EReal)
    = broadcastInDim S8x200x200x1 ![0, 1, 2] bcast_S8x200x200_S8x200x200x1_0_1_2 (m ((c : Thread nD τ).loc main_arg2)) := by
  dsimp only [V, hostOps0]; after_results <;> rfl

/-- The bias as one row. -/
theorem V_bias (c : Dev nD) : (V m c main_v1 : S1x128.Idx → EReal)
    = shapeCast S1x128 (m ((c : Thread nD τ).loc main_arg7)) shapeCasts_S128_S1x128 := by
  dsimp only [V, hostOps0]; after_results <;> rfl

/-! ## Each input block as entries of the launched arrays -/

theorem blk_h (c : Dev nD) (t : Fin cfg0.N) (n : Fin 200) (e : Fin 128) :
    (iblk m c 0 t : Vec Ideal S1x200x128 .f32) (ix3 (0 : Fin 1) n e)
      = ((m ((c : Thread nD τ).loc main_arg0)) : S8x200x128.Idx → EReal) (ix3 (batch t) n e) := by
  obtain ⟨⟨e0, e1, e2⟩, -⟩ := idx_facts t
  unfold iblk
  rw [View.read_apply]
  show V m c main_arg0 (((cfg0.win 0).blk t).view.emb (ix3 (0 : Fin 1) n e)) = _
  rw [V_main_arg0]
  congr 1
  funext a; apply Fin.ext
  match a with
  | ⟨0, _⟩ => show win0_0.index t (0 : Fin 3) * 1 + 1 * 0 = t.val; rw [e0]; omega
  | ⟨1, _⟩ => show win0_0.index t (1 : Fin 3) * 200 + 1 * n.val = n.val; rw [e1]; omega
  | ⟨2, _⟩ => show win0_0.index t (2 : Fin 3) * 128 + 1 * e.val = e.val; rw [e2]; omega

theorem blk_ef (c : Dev nD) (t : Fin cfg0.N) (n k : Fin 200) (q : Fin 16) :
    (iblk m c 1 t : Vec Ideal S1x200x200x16 .f32) (ix4 (0 : Fin 1) n k q)
      = ((m ((c : Thread nD τ).loc main_arg1)) : S8x200x200x16.Idx → EReal) (ix4 (batch t) n k q) := by
  obtain ⟨-, ⟨e0, e1, e2, e3⟩, -⟩ := idx_facts t
  unfold iblk
  rw [View.read_apply]
  show V m c main_arg1 (((cfg0.win 1).blk t).view.emb (ix4 (0 : Fin 1) n k q)) = _
  rw [V_main_arg1]
  congr 1
  funext a; apply Fin.ext
  match a with
  | ⟨0, _⟩ => show win0_1.index t (0 : Fin 4) * 1 + 1 * 0 = t.val; rw [e0]; omega
  | ⟨1, _⟩ => show win0_1.index t (1 : Fin 4) * 200 + 1 * n.val = n.val; rw [e1]; omega
  | ⟨2, _⟩ => show win0_1.index t (2 : Fin 4) * 200 + 1 * k.val = k.val; rw [e2]; omega
  | ⟨3, _⟩ => show win0_1.index t (3 : Fin 4) * 16 + 1 * q.val = q.val; rw [e3]; omega

theorem blk_w (c : Dev nD) (t : Fin cfg0.N) (n k : Fin 200) :
    (iblk m c 2 t : Vec Ideal S1x200x200x1 .f32) (ix4 (0 : Fin 1) n k (0 : Fin 1))
      = ((m ((c : Thread nD τ).loc main_arg2)) : S8x200x200.Idx → EReal) (ix3 (batch t) n k) := by
  obtain ⟨-, -, ⟨e0, e1, e2, e3⟩, -⟩ := idx_facts t
  have hemb : ((cfg0.win 2).blk t).view.emb (ix4 (0 : Fin 1) n k (0 : Fin 1)) = ix4 (batch t) n k (0 : Fin 1) := by
    funext a; apply Fin.ext
    match a with
    | ⟨0, _⟩ => show win0_2.index t (0 : Fin 4) * 1 + 1 * 0 = t.val; rw [e0]; omega
    | ⟨1, _⟩ => show win0_2.index t (1 : Fin 4) * 200 + 1 * n.val = n.val; rw [e1]; omega
    | ⟨2, _⟩ => show win0_2.index t (2 : Fin 4) * 200 + 1 * k.val = k.val; rw [e2]; omega
    | ⟨3, _⟩ => show win0_2.index t (3 : Fin 4) * 1 + 1 * 0 = 0; rw [e3]
  unfold iblk
  rw [View.read_apply]
  show V m c main_v0 (((cfg0.win 2).blk t).view.emb (ix4 (0 : Fin 1) n k (0 : Fin 1))) = _
  rw [hemb, V_weights]
  refine broadcastInDim_apply _ bcast_S8x200x200_S8x200x200x1_0_1_2 _ (ix4 (batch t) n k (0 : Fin 1)) (ix3 (batch t) n k) fun a => ?_
  match a with
  | ⟨0, _⟩ => show t.val = if (8 : ℕ) = 1 then 0 else t.val; rw [if_neg (by decide)]
  | ⟨1, _⟩ => show n.val = if (200 : ℕ) = 1 then 0 else n.val; rw [if_neg (by decide)]
  | ⟨2, _⟩ => show k.val = if (200 : ℕ) = 1 then 0 else k.val; rw [if_neg (by decide)]

theorem blk_whole3 (c : Dev nD) (t : Fin cfg0.N) : (iblk m c 3 t : Vec Ideal S128x128 .f32) = (m ((c : Thread nD τ).loc main_arg3)) := by
  obtain ⟨-, -, -, ⟨e0, e1⟩, -⟩ := idx_facts t
  funext z
  unfold iblk
  rw [View.read_apply]
  show V m c main_arg3 (((cfg0.win 3).blk t).view.emb z) = _
  rw [V_main_arg3]
  congr 1
  funext a; apply Fin.ext
  match a with
  | ⟨0, _⟩ => show win0_3.index t (0 : Fin 2) * 128 + 1 * (z 0).val = (z 0).val; rw [e0]; omega
  | ⟨1, _⟩ => show win0_3.index t (1 : Fin 2) * 128 + 1 * (z 1).val = (z 1).val; rw [e1]; omega

theorem blk_whole4 (c : Dev nD) (t : Fin cfg0.N) : (iblk m c 4 t : Vec Ideal S128x16 .f32) = (m ((c : Thread nD τ).loc main_arg4)) := by
  obtain ⟨-, -, -, -, ⟨e0, e1⟩, -⟩ := idx_facts t
  funext z
  unfold iblk
  rw [View.read_apply]
  show V m c main_arg4 (((cfg0.win 4).blk t).view.emb z) = _
  rw [V_main_arg4]
  congr 1
  funext a; apply Fin.ext
  match a with
  | ⟨0, _⟩ => show win0_4.index t (0 : Fin 2) * 128 + 1 * (z 0).val = (z 0).val; rw [e0]; omega
  | ⟨1, _⟩ => show win0_4.index t (1 : Fin 2) * 16 + 1 * (z 1).val = (z 1).val; rw [e1]; omega

theorem blk_whole5 (c : Dev nD) (t : Fin cfg0.N) : (iblk m c 5 t : Vec Ideal S128x1 .f32) = (m ((c : Thread nD τ).loc main_arg5)) := by
  obtain ⟨-, -, -, -, -, ⟨e0, e1⟩, -⟩ := idx_facts t
  funext z
  unfold iblk
  rw [View.read_apply]
  show V m c main_arg5 (((cfg0.win 5).blk t).view.emb z) = _
  rw [V_main_arg5]
  congr 1
  funext a; apply Fin.ext
  match a with
  | ⟨0, _⟩ => show win0_5.index t (0 : Fin 2) * 128 + 1 * (z 0).val = (z 0).val; rw [e0]; omega
  | ⟨1, _⟩ => show win0_5.index t (1 : Fin 2) * 1 + 1 * (z 1).val = (z 1).val; rw [e1]; omega

theorem blk_whole6 (c : Dev nD) (t : Fin cfg0.N) : (iblk m c 6 t : Vec Ideal S128x128 .f32) = (m ((c : Thread nD τ).loc main_arg6)) := by
  obtain ⟨-, -, -, -, -, -, ⟨e0, e1⟩, -⟩ := idx_facts t
  funext z
  unfold iblk
  rw [View.read_apply]
  show V m c main_arg6 (((cfg0.win 6).blk t).view.emb z) = _
  rw [V_main_arg6]
  congr 1
  funext a; apply Fin.ext
  match a with
  | ⟨0, _⟩ => show win0_6.index t (0 : Fin 2) * 128 + 1 * (z 0).val = (z 0).val; rw [e0]; omega
  | ⟨1, _⟩ => show win0_6.index t (1 : Fin 2) * 128 + 1 * (z 1).val = (z 1).val; rw [e1]; omega

theorem blk_bias (c : Dev nD) (t : Fin cfg0.N) (f : Fin 128) :
    (iblk m c 7 t : Vec Ideal S1x128 .f32) (ix2 (0 : Fin 1) f) = ((m ((c : Thread nD τ).loc main_arg7)) : S128.Idx → EReal) (ix1 f) := by
  obtain ⟨-, -, -, -, -, -, -, ⟨e0, e1⟩, -⟩ := idx_facts t
  have hemb : ((cfg0.win 7).blk t).view.emb (ix2 (0 : Fin 1) f) = ix2 (0 : Fin 1) f := by
    funext a; apply Fin.ext
    match a with
    | ⟨0, _⟩ => show win0_7.index t (0 : Fin 2) * 1 + 1 * 0 = 0; rw [e0]
    | ⟨1, _⟩ => show win0_7.index t (1 : Fin 2) * 128 + 1 * f.val = f.val; rw [e1]; omega
  unfold iblk
  rw [View.read_apply]
  show V m c main_v1 (((cfg0.win 7).blk t).view.emb (ix2 (0 : Fin 1) f)) = _
  rw [hemb, V_bias]
  exact shapeCast_a_1a_apply _ shapeCasts_S128_S1x128 (0 : Fin 1) f

/-! ## What a point writes back, the cover, the result array -/

/-- Grid point `t` writes back block `t` of the formula of the launched arrays. -/
theorem flushed_eq (c : Dev nD) (t : Fin cfg0.N) :
    (dats m 0 c).flushed 8 t = ((cfg0.win 8).blk t).view.read (Elt Ideal) (whole m c) := by
  rw [Value.flushed8]
  unfold out0_8
  rw [View.canon_unit_zero hz3]
  simp only [View.ld_unit_zero (S := S1x200x128) hz3, View.ld_unit_zero (S := S1x200x200x16) hz4,
    View.ld_unit_zero (S := S1x200x200x1) hz4, View.ld_unit_zero (S := S128x128) hz2, View.ld_unit_zero (S := S128x16) hz2,
    View.ld_unit_zero (S := S128x1) hz2, View.ld_unit_zero (S := S1x128) hz2]
  rw [payload_eq]
  obtain ⟨-, -, -, -, -, -, -, -, ⟨e0, e1, e2⟩⟩ := idx_facts t
  funext y
  have hy0 : (y 0).val < 1 := (y 0).isLt
  have hy : y = ix3 (0 : Fin 1) (y 1) (y 2) := by
    funext a; apply Fin.ext
    match a with
    | ⟨0, _⟩ => show (y 0).val = 0; omega
    | ⟨1, _⟩ => rfl
    | ⟨2, _⟩ => rfl
  have hemb : ((cfg0.win 8).blk t).view.emb y = ix3 (batch t) (y 1) (y 2) := by
    funext a; apply Fin.ext
    match a with
    | ⟨0, _⟩ => show win0_8.index t (0 : Fin 3) * 1 + 1 * (y 0).val = t.val; rw [e0]; omega
    | ⟨1, _⟩ => show win0_8.index t (1 : Fin 3) * 200 + 1 * (y 1).val = (y 1).val; rw [e1]; omega
    | ⟨2, _⟩ => show win0_8.index t (2 : Fin 3) * 128 + 1 * (y 2).val = (y 2).val; rw [e2]; omega
  show stored (iblk m c 0 t) (iblk m c 1 t) (iblk m c 2 t) (iblk m c 3 t) (iblk m c 4 t) (iblk m c 5 t) (iblk m c 6 t) (iblk m c 7 t) y
    = whole m c (((cfg0.win 8).blk t).view.emb y)
  rw [hemb]
  conv_lhs => rw [hy]
  refine (stored_apply (iblk m c 0 t) (iblk m c 1 t) (iblk m c 2 t) (iblk m c 3 t) (iblk m c 4 t) (iblk m c 5 t) (iblk m c 6 t)
    (iblk m c 7 t) (m ((c : Thread nD τ).loc main_arg0)) (m ((c : Thread nD τ).loc main_arg1)) (m ((c : Thread nD τ).loc main_arg2)) (m ((c : Thread nD τ).loc main_arg7)) (batch t)
    (blk_h m c t) (blk_ef m c t) (blk_w m c t) (blk_bias m c t) (y 1) (y 2)).trans ?_
  rw [blk_whole3 m c t, blk_whole4 m c t, blk_whole5 m c t, blk_whole6 m c t]
  rfl

/-- An index of the result array is in point `t`'s block iff each coordinate is in the block's range on its axis. -/
theorem mem_blk (t : Fin cfg0.N) (i : S8x200x128.Idx) :
    i ∈ ((cfg0.win 8).blk t).view.set ↔ ∀ a : Fin 3, win0_8.index t a * S1x200x128.size a ≤ (i a).val
      ∧ (i a).val < win0_8.index t a * S1x200x128.size a + S1x200x128.size a := by
  show i ∈ ((View.whole main_v2).slice (win0_8.rect t)).set ↔ _
  rw [View.set_slice_whole, Rect.mem_set_unit]
  exact Iff.rfl

/-- Every index of the result array lies in the block of the point that is its batch. -/
theorem cover (i : S8x200x128.Idx) : ∃ t : Fin cfg0.N, (cfg0.win 8).flush t = true ∧ i ∈ ((cfg0.win 8).blk t).view.set := by
  have hN : cfg0.N = 8 := N_0
  have hi0 : (i 0).val < 8 := (i 0).isLt
  have hi1 : (i 1).val < 200 := (i 1).isLt
  have hi2 : (i 2).val < 128 := (i 2).isLt
  have ht : (i 0).val < cfg0.N := by omega
  obtain ⟨-, -, -, -, -, -, -, -, ⟨e0, e1, e2⟩⟩ := idx_facts ⟨(i 0).val, ht⟩
  have e0' : win0_8.index ⟨(i 0).val, ht⟩ (0 : Fin 3) = (i 0).val := e0
  refine ⟨⟨(i 0).val, ht⟩, flush0_8 _, ?_⟩
  rw [mem_blk]
  intro a
  match a with
  | ⟨0, _⟩ =>
    show win0_8.index ⟨(i 0).val, ht⟩ (0 : Fin 3) * 1 ≤ (i 0).val ∧ (i 0).val < win0_8.index ⟨(i 0).val, ht⟩ (0 : Fin 3) * 1 + 1
    rw [e0']; omega
  | ⟨1, _⟩ =>
    show win0_8.index ⟨(i 0).val, ht⟩ (1 : Fin 3) * 200 ≤ (i 1).val ∧ (i 1).val < win0_8.index ⟨(i 0).val, ht⟩ (1 : Fin 3) * 200 + 200
    rw [e1]; omega
  | ⟨2, _⟩ =>
    show win0_8.index ⟨(i 0).val, ht⟩ (2 : Fin 3) * 128 ≤ (i 2).val ∧ (i 2).val < win0_8.index ⟨(i 0).val, ht⟩ (2 : Fin 3) * 128 + 128
    rw [e2]; omega

/-- The eight blocks tile the result, so after the run the result array is the formula of the launched arrays. -/
theorem final (c : Dev nD) : (dats m 0 c).arrAt 8 cfg0.N = whole m c :=
  (dats m 0 c).arrAt_eq_of_cover 8 (whole m c) (fun t _ => flushed_eq m c t) fun i => cover i

/-- The idealized kernel's run: the result array ends at the formula of the launched arrays, the arguments unchanged. -/
theorem run : θ_run defs (onTc (τ := τ) (main (F := Ideal))) ⟨m, fun _ => 0, ρ⟩ fun r => ∀ c : Dev nD,
      r.2.mem ((c : Thread nD τ).loc main_v2) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.MeanMessage.Kernel

end
-- ==== Proof.lean ====
/-
  Edge-aware message passing with a mean over neighbours: a fused kernel against its plain reference, on the extended reals.

  Both programs compute, for batch `b`, node `n`, output feature `f`,
    out[b,n,f] = Σ_d mean_m tanh (hi[b,n,d] + ej[b,n,m,d] + W[b,n,m] · W_weight[d]) · W_out[f,d] + b_out[f],
  with `hi` the node projection and `ej` the edge projection (`MeanMessage.out`). They differ only in how the mean over
  the 200 neighbours is taken. The reference adds the 200 messages in one sum and divides by 200. The kernel works one
  batch per grid point, adds the messages forty neighbours at a time onto a total that starts at zero, and multiplies by
  the reciprocal of 200, a constant named in its idealization as the rational 1/200. Regrouping a sum of 200 terms into
  five sums of forty holds in any commutative monoid, and dividing by 200 is multiplying by 1/200 on every extended real,
  so the two results agree at every index whatever the inputs: finiteness of the inputs is not used.

  The three frames are the generated ones (the reference's is its run with the result dropped). The one entry of the
  idealization's ledger is the named reciprocal. The equality of results sets the kernel's run (`Kernel.run`: the result
  array ends at `MeanMessage.out` of the launched arrays) beside the reference's run read at an index
  (`Reference.result_eq`).
-/
import proofs.«171130_j6047313952962_1_alg».proof.Defs
import proofs.«171130_j6047313952962_1_alg».proof.Proof.Gen.Kernel
import proofs.«171130_j6047313952962_1_alg».proof.Proof.Gen.Kernel.Frame
import proofs.«171130_j6047313952962_1_alg».proof.Proof.Gen.KernelIdeal
import proofs.«171130_j6047313952962_1_alg».proof.Proof.Gen.KernelIdeal.Frame
import proofs.«171130_j6047313952962_1_alg».proof.Proof.Gen.KernelIdeal.Value
import proofs.«171130_j6047313952962_1_alg».proof.Proof.Gen.ReferenceIdeal
import proofs.«171130_j6047313952962_1_alg».proof.Proof.Gen.ReferenceIdeal.Run
import proofs.«171130_j6047313952962_1_alg».proof.Proof.Gen.ReferenceIdeal.Read
import proofs.«171130_j6047313952962_1_alg».proof.Proof.Gen.Pre_finite_inputs
import proofs.«171130_j6047313952962_1_alg».proof.Proof.RefValue
import proofs.«171130_j6047313952962_1_alg».proof.Proof.KernelValue
import Idealize.ShloMosaic.PureOps.IdealRules

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization's one rewrite: the kernel's literal `0.005` is the named constant 1/200. -/
theorem preserves : Cert.preserves_Kernel_KernelIdeal :=
  IdealRules.named_const.statement Cert.KernelIdeal.κ "inv_200" .f32 0x3BA3D70A#32 ((1 / 200 : ℝ) : EReal) rfl

/-- From memories agreeing on the arguments both programs end with `MeanMessage.out` of those arguments as their result. -/
theorem algebraic : Cert.algebraic_KernelIdeal_ReferenceIdeal := by
  intro m ρ m' ρ' _ hagree
  refine ⟨fun c => Cert.MeanMessage.Kernel.whole m c, Cert.MeanMessage.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v19_eq, Cert.MeanMessage.Reference.result_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
